-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S2x1x8192 : Shape := ⟨3, ![2, 1, 8192]⟩
abbrev S128x8192 : Shape := ⟨2, ![128, 8192]⟩
abbrev S8192x128 : Shape := ⟨2, ![8192, 128]⟩
abbrev S1x1x8192 : Shape := ⟨3, ![1, 1, 8192]⟩
abbrev S128 : Shape := ⟨1, ![128]⟩
abbrev S128x1 : Shape := ⟨2, ![128, 1]⟩
abbrev S1x128 : Shape := ⟨2, ![1, 128]⟩
abbrev S8192 : Shape := ⟨1, ![8192]⟩
abbrev S1x8192 : Shape := ⟨2, ![1, 8192]⟩
abbrev S_ : Shape := ⟨0, ![]⟩
abbrev S1024x1024 : Shape := ⟨2, ![1024, 1024]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S2x1x8192, .f32⟩
  | .hbm, ⟨3, _⟩ => ⟨S_, .f32⟩
  | .hbm, ⟨4, _⟩ => ⟨S1x8192, .f32⟩
  | .hbm, ⟨5, _⟩ => ⟨S_, .f32⟩
  | .hbm, ⟨6, _⟩ => ⟨S1x8192, .f32⟩
  | .hbm, ⟨7, _⟩ => ⟨S1x8192, .f32⟩
  | .hbm, ⟨8, _⟩ => ⟨S_, .f32⟩
  | .hbm, ⟨9, _⟩ => ⟨S1x8192, .f32⟩
  | .hbm, ⟨10, _⟩ => ⟨S1x8192, .f32⟩
  | .hbm, ⟨11, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S8192x128, .f32⟩
  | .local _ .vmem, ⟨3, _⟩ => ⟨S8192x128, .f32⟩
  | .local _ .vmem, ⟨4, _⟩ => ⟨S1x1x8192, .f32⟩
  | .local _ .vmem, ⟨5, _⟩ => ⟨S1x1x8192, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  transposes_S128x1_p1_0_S1x128 : S128x1.Transposes [1, 0] S1x128
  transposes_S128x8192_p1_0_S8192x128 : S128x8192.Transposes [1, 0] S8192x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  inb_S1x1x8192_S1x1x8192_0_0_0 : ∀ a, (![0, 0, 0] : Fin 3 → Nat) a + S1x1x8192.size a ≤ S1x1x8192.size a
  h_S1x1x8192 : 0 < S1x1x8192.numel
  reduces_S128x8192_S8192 : S128x8192.Reduces [0] S8192
  shapeCasts_S8192_S1x8192 : S8192.ShapeCasts S1x8192
  shapeCasts_S1x1x8192_S1x1x8192 : S1x1x8192.ShapeCasts S1x1x8192
  shapeCasts_S1x8192_S1x1x8192 : S1x8192.ShapeCasts S1x1x8192
  reducesTo_S2x1x8192_S1x8192_d0 : S2x1x8192.ReducesTo [0] S1x8192
  h_S_ : 0 < S_.numel
  bcast_S_S1x8192 : S_.BroadcastsInDim S1x8192 (![] : Fin 0 → Fin S1x8192.rank)
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x8192.size a
  hwx0_1 : ∀ i : grid0.Coords, EltTy.bits .f32 = 32 ∨ (Rect.block (s := S8192x8192) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S2x1x8192.size a
  hwx0_2 : ∀ i : grid0.Coords, EltTy.bits .f32 = 32 ∨ (Rect.block (s := S2x1x8192) S1x1x8192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8192x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  reducesTo_S8192x8192_S8192_d0 : S8192x8192.ReducesTo [0] S8192
  bcast_S_S8192 : S_.BroadcastsInDim S8192 (![] : Fin 0 → Fin S8192.rank)
  transposes_S8192x8192_S8192x8192_1_0 : S8192x8192.Transposes [1, 0] S8192x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.KernelRun.lean ====
/-
  The idealized kernel's run with its two result arrays NAMED.

  @main is three segments: the fused degree pass (a kernel launched on a 2 × 32 grid), a stretch of host
  operations (the two per-core partial column sums added, ε added, the reciprocal taken), and the
  column-scaling pass (a kernel launched on an 8 × 8 grid). The contents of the TensorCore's buffers at
  the three boundaries are the fold `W0 → W1 → W2 → W3`: a region replaces its arrays by what its
  write-backs leave, a host stretch applies its operations. Every weakly fair execution terminates
  in a state whose unscoped buffers hold `W3`; so the two results — the forward transition, an array
  the first pass writes and nothing later touches, and the reverse transition, the array the second
  pass writes — are `W3` read at their references, and the argument ends as launched.
-/
import proofs.«145409_j19774029431556_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the forward transition's
    buffer and the reverse transition's buffer at the last boundary's contents `W3`, and the adjacency
    matrix as launched. -/
theorem run_boundary : θ_run defs (onTc (τ := τ) (main (F := F))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v6) = W3 m ρ c (Proc.devRef .tc main_v6)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0_0 (by decide)), h c _ (mem_uc main_v6 (by decide)),
        (h c _ (mem_uc main_arg0 (by decide))).trans (W3_main_arg0 m ρ c)⟩)

end Cert.KernelIdeal.ValueRun

end
-- ==== Proof.Pieces.lean ====
/-
  What one step of the degree pass leaves in its two output buffers, as values.

  The body stores each output buffer whole. Whatever the grid point, the forward buffer is left at the
  band transposed and scaled (the first payload of the band). The accumulator buffer is left at the
  band's column sums added to its previous contents — and at the first band of a core (the case in
  which the body first stores zeros and reads them back) the previous contents are the zeros.
-/
import proofs.«145409_j19774029431556_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- First band of a core: the forward buffer is left at the band's first payload. -/
theorem fwd_first (c : Dev nD) (i : grid0.Coords) (a2 : Memref sig .tc .vmem S128x8192 .f32) (h2 : a2.IsWhole)
    (a3 : Memref sig .tc .vmem S8192x128 .f32) (h3 : a3.IsWhole) (a4 : Memref sig .tc .vmem S1x1x8192 .f32) (h4 : a4.IsWhole)
    (hc : cond0_0 i) (x : Vec F S128x8192 .f32) :
    out0_A_1 c i a2 h2 a3 h3 a4 h4 hc x = k0_pay1 x := by
  unfold out0_A_1
  rw [View.read_writes_eq_canon _ _ _ (cover0_A_1 c i a2 h2 a3 h3 a4 h4 hc x)]
  unfold kernelRun0_A
  dsimp only
  rw [View.canon_unit_zero zeros2]
  simp only [View.readAt_eq_ld, h2.read_unread, View.ld_unit_zero (S := S128x8192) zeros2]

/-- A later band: the same, whatever the accumulator held. -/
theorem fwd_later (c : Dev nD) (i : grid0.Coords) (a2 : Memref sig .tc .vmem S128x8192 .f32) (h2 : a2.IsWhole)
    (a3 : Memref sig .tc .vmem S8192x128 .f32) (h3 : a3.IsWhole) (a4 : Memref sig .tc .vmem S1x1x8192 .f32) (h4 : a4.IsWhole)
    (hc : ¬cond0_0 i) (x : Vec F S128x8192 .f32) (xo : Vec F S1x1x8192 .f32) :
    out0_B_1 c i a2 h2 a3 h3 a4 h4 hc x xo = k0_pay1 x := by
  unfold out0_B_1
  rw [View.read_writes_eq_canon _ _ _ (cover0_B_1 c i a2 h2 a3 h3 a4 h4 hc x xo)]
  unfold kernelRun0_B
  dsimp only
  rw [View.canon_unit_zero zeros2]
  simp only [View.readAt_eq_ld, h2.read_unread, View.ld_unit_zero (S := S128x8192) zeros2]

/-- First band of a core: the accumulator is left at the band's column sums added to the zeros just stored. -/
theorem acc_first (c : Dev nD) (i : grid0.Coords) (a2 : Memref sig .tc .vmem S128x8192 .f32) (h2 : a2.IsWhole)
    (a3 : Memref sig .tc .vmem S8192x128 .f32) (h3 : a3.IsWhole) (a4 : Memref sig .tc .vmem S1x1x8192 .f32) (h4 : a4.IsWhole)
    (hc : cond0_0 i) (x : Vec F S128x8192 .f32) :
    out0_A_2 c i a2 h2 a3 h3 a4 h4 hc x = k0_pay3 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x1x8192) zeros3, View.readCov_unit_zero (S := S1x1x8192) _ zeros3]
  simp only [View.readAt_eq_ld, h2.read_unread, View.ld_unit_zero (S := S128x8192) zeros2]

/-- A later band: the accumulator is left at the band's column sums added to what it held. -/
theorem acc_later (c : Dev nD) (i : grid0.Coords) (a2 : Memref sig .tc .vmem S128x8192 .f32) (h2 : a2.IsWhole)
    (a3 : Memref sig .tc .vmem S8192x128 .f32) (h3 : a3.IsWhole) (a4 : Memref sig .tc .vmem S1x1x8192 .f32) (h4 : a4.IsWhole)
    (hc : ¬cond0_0 i) (x : Vec F S128x8192 .f32) (xo : Vec F S1x1x8192 .f32) :
    out0_B_2 c i a2 h2 a3 h3 a4 h4 hc x xo = k0_pay3 x xo := by
  unfold out0_B_2
  rw [View.read_writes_eq_canon _ _ _ (cover0_B_2 c i a2 h2 a3 h3 a4 h4 hc x xo)]
  unfold kernelRun0_B
  dsimp only
  rw [View.canon_unit_zero zeros3]
  simp only [View.readAt_eq_ld, h2.read_unread, h4.read_unread, View.ld_unit_zero (S := S128x8192) zeros2,
    View.ld_unit_zero (S := S1x1x8192) zeros3]

end Cert.KernelIdeal.Pieces

end
-- ==== Proof.DegreeAcc.lean ====
/-
  The degree pass, point by point.

  The 64 grid points are visited in order; point n works on band n (rows 128·n … 128·n + 127) and belongs
  to core n / 32. After the body at point n the forward buffer holds band n transposed and scaled, whatever
  came before. The accumulator buffer is not written back between the points of one core, so it carries: at
  the first point of a core (n ≡ 0 mod 32) it is reset and holds band n's column sums added to zeros; at any
  other point it holds band n's column sums added to what point n − 1 left.
-/
import proofs.«145409_j19774029431556_2_alg».proof.Proof.Gen.KernelIdeal.Frame
import proofs.«145409_j19774029431556_2_alg».proof.Proof.Pieces

set_option maxRecDepth 16384

noncomputable section

namespace Cert.KernelIdeal.DegreeAcc

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b))

/-- The band of the adjacency matrix that point `n` works on, as the pass finds it. -/
abbrev band (c : Dev nD) (n : ℕ) (h : n < cfg0.N) : Vec F S128x8192 .f32 := iblk0 V c 0 ⟨n, h⟩

/-- The accumulator after point `n`: reset-then-add at the first point of a core, add otherwise. -/
def accAt (c : Dev nD) : (n : ℕ) → n < cfg0.N → Vec F S1x1x8192 .f32
  | 0, h => k0_pay3 (band V c 0 h) (k0_pay2 (F := F))
  | n + 1, h =>
    if (n + 1) % 32 = 0 then k0_pay3 (band V c (n + 1) h) (k0_pay2 (F := F))
    else k0_pay3 (band V c (n + 1) h) (accAt c n (Nat.lt_of_succ_lt h))

/-- What the two output buffers hold after point `n`: the band's forward payload, and the running accumulator —
    by induction on the point. -/
theorem outsAt_eq (c : Dev nD) : ∀ (n : ℕ) (h : n < cfg0.N),
    outsAt0 V c n h = (k0_pay1 (band V c n h), accAt V c n h)
  | 0, h => by
    rw [outsAt0_A V c ⟨0, h⟩ rfl, Pieces.fwd_first, Pieces.acc_first]
    rfl
  | n + 1, h => by
    by_cases h0 : (n + 1) % 32 = 0
    · rw [outsAt0_A V c ⟨n + 1, h⟩ h0, Pieces.fwd_first, Pieces.acc_first]
      show _ = (_, accAt V c (n + 1) h)
      rw [accAt, if_pos h0]
    · rw [outsAt0_B V c ⟨n + 1, h⟩ h0, Pieces.fwd_later, Pieces.acc_later]
      show (_, k0_pay3 _ (outsAt0 V c n _).2) = (_, accAt V c (n + 1) h)
      rw [outsAt_eq c n, accAt, if_neg h0]

end Cert.KernelIdeal.DegreeAcc

end
-- ==== Proof.Payloads.lean ====
/-
  The bodies' arithmetic, read entry by entry over the extended reals.

  The degree pass takes a band `x` of 128 rows of the adjacency matrix (128 × 8192). Its first store is
  the band transposed and scaled: entry (r, t) is `x[t, r] · (1 / (Σ_k x[t, k] + ε))`, the reciprocal of
  row t's sum. Its accumulator store adds the band's column sums to what the accumulator held: entry j
  becomes `acc[j] + Σ_t x[t, j]`; at the first band of a core the accumulator was just set to zero.
  The scaling pass multiplies a 1024 × 1024 tile `a` by a row `d` of 1024 reciprocals: entry (p, q) is
  `a[p, q] · d[q]`.
-/
import proofs.«145409_j19774029431556_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The three float words both programs use: 0, ε (the f32 nearest 1e-8) and 1. -/
abbrev zeroW : EReal := Ideal.ofBits .f32 0x00000000#32
abbrev epsW : EReal := Ideal.ofBits .f32 0x322BCC77#32
abbrev oneW : EReal := Ideal.ofBits .f32 0x3F800000#32

/-- A lane sum of a band along its long axis, at row `t`: the sum of the row's 8192 entries. -/
theorem rowSum_apply (x : FVec Ideal S128x8192 .f32) (hφ : FKind.Formats .f32)
    (hacc : (0x00000000#32 : BitVec 32) = 0x00000000#32) (t : Fin 128) :
    multiReduction .add [1] S128 x 0x00000000#32 reduces_S128x8192_S128 hφ hacc (ix1 t)
      = ∑ k : Fin 8192, x (ix2 t k) := by
  refine (Ideal.multiReduction_add_single x 0x00000000#32 reduces_S128x8192_S128 hφ hacc (ix1 t)).trans ?_
  refine Finset.sum_congr rfl fun k _ => congrArg x (funext fun a => Fin.ext ?_)
  match a with
  | ⟨0, _⟩ => rfl
  | ⟨1, _⟩ => rfl

/-- A sublane sum of a band along its short axis, at column `j`: the sum of the column's 128 entries. -/
theorem colSum_apply (x : FVec Ideal S128x8192 .f32) (hφ : FKind.Formats .f32)
    (hacc : (0x00000000#32 : BitVec 32) = 0x00000000#32) (j : Fin 8192) :
    multiReduction .add [0] S8192 x 0x00000000#32 reduces_S128x8192_S8192 hφ hacc (ix1 j)
      = ∑ t : Fin 128, x (ix2 t j) := by
  refine (Ideal.multiReduction_add_single x 0x00000000#32 reduces_S128x8192_S8192 hφ hacc (ix1 j)).trans ?_
  refine Finset.sum_congr rfl fun k _ => congrArg x (funext fun a => Fin.ext ?_)
  match a with
  | ⟨0, _⟩ => rfl
  | ⟨1, _⟩ => rfl

/-- The band's reciprocal column, cast and transposed: the keepdims column [128] → [128, 1] reads row t at (t, 0). -/
theorem col_cast_apply (v : FVec Ideal S128 .f32) (t : Fin 128) :
    shapeCast S128x1 v shapeCasts_S128_S128x1 (ix2 t (0 : Fin 1)) = v (ix1 t) :=
  shapeCast_apply v shapeCasts_S128_S128x1 (ix2 t (0 : Fin 1)) (ix1 t) (by
    rw [Shape.rowMajor_val_one, Shape.rowMajor_val_two]
    show t.val = t.val * 1 + 0
    omega)

/-- The forward store's entry (r, t): the band's entry (t, r) times the reciprocal of row t's sum plus ε. -/
theorem pay1_apply (x : FVec Ideal S128x8192 .f32) (r : Fin 8192) (t : Fin 128) :
    k0_pay1 (F := Ideal) x (ix2 r t)
      = x (ix2 t r) * Ideal.div oneW ((∑ k : Fin 8192, x (ix2 t k)) + epsW) := by
  unfold k0_pay1
  dsimp only
  refine congrArg₂ (· * ·) ?_ ?_
  · exact transpose_apply [1, 0] x transposes_S128x8192_p1_0_S8192x128 (ix2 r t) (ix2 t r)
      (fun b => match b with | ⟨0, _⟩ => rfl | ⟨1, _⟩ => rfl)
  · refine (broadcastTo_apply _ broadcasts_S1x128_S8192x128 (ix2 r t) (ix2 (0 : Fin 1) t) (fun a => match a with
      | ⟨0, _⟩ => by show (0 : Nat) = if (1 : Nat) = 1 then 0 else _; rw [if_pos rfl]
      | ⟨1, _⟩ => by show t.val = if (128 : Nat) = 1 then 0 else t.val; rw [if_neg (by decide)])).trans ?_
    refine (transpose_apply [1, 0] _ transposes_S128x1_p1_0_S1x128 (ix2 (0 : Fin 1) t) (ix2 t (0 : Fin 1))
      (fun b => match b with | ⟨0, _⟩ => rfl | ⟨1, _⟩ => rfl)).trans ?_
    show Ideal.div oneW (shapeCast S128x1 _ shapeCasts_S128_S128x1 (ix2 t (0 : Fin 1)) + epsW) = _
    rw [col_cast_apply, rowSum_apply]

/-- The reset store's entries are all zero. -/
theorem pay2_apply (j : S1x1x8192.Idx) : k0_pay2 (F := Ideal) j = zeroW := rfl

/-- The accumulator store's entry j: what the accumulator held there plus column j's sum over the band. -/
theorem pay3_apply (x : FVec Ideal S128x8192 .f32) (acc : FVec Ideal S1x1x8192 .f32) (j : Fin 8192) :
    k0_pay3 (F := Ideal) x acc (ix3 (0 : Fin 1) (0 : Fin 1) j)
      = acc (ix3 (0 : Fin 1) (0 : Fin 1) j) + ∑ t : Fin 128, x (ix2 t j) := by
  unfold k0_pay3
  dsimp only
  refine congrArg₂ (· + ·) ?_ ?_
  · exact congrFun (shapeCast_self acc shapeCasts_S1x1x8192_S1x1x8192) _
  · refine (shapeCast_apply _ shapeCasts_S1x8192_S1x1x8192 (ix3 (0 : Fin 1) (0 : Fin 1) j) (ix2 (0 : Fin 1) j) (by
      rw [Shape.rowMajor_val_two, Shape.rowMajor_val_three]
      show 0 * 8192 + j.val = (0 * 1 + 0) * 8192 + j.val
      omega)).trans ?_
    refine (shapeCast_apply _ shapeCasts_S8192_S1x8192 (ix2 (0 : Fin 1) j) (ix1 j) (by
      rw [Shape.rowMajor_val_one, Shape.rowMajor_val_two]
      show j.val = 0 * 8192 + j.val
      omega)).trans ?_
    exact colSum_apply x _ _ j

/-- The scaling pass's store, entry (p, q): the tile's entry times the reciprocal row's entry q. -/
theorem scale_apply (a : FVec Ideal S1024x1024 .f32) (d : FVec Ideal S1x1024 .f32) (p q : Fin 1024) :
    k1_pay1 (F := Ideal) a d (ix2 p q) = a (ix2 p q) * d (ix2 (0 : Fin 1) q) := by
  unfold k1_pay1
  refine congrArg₂ (· * ·) rfl ?_
  refine (broadcastTo_apply _ broadcasts_S1x1024_S1024x1024 (ix2 p q) (ix2 (0 : Fin 1) q) (fun b => match b with
    | ⟨0, _⟩ => by show (0 : Nat) = if (1 : Nat) = 1 then 0 else _; rw [if_pos rfl]
    | ⟨1, _⟩ => by show q.val = if (1024 : Nat) = 1 then 0 else q.val; rw [if_neg (by decide)])).trans ?_
  exact congrFun (shapeCast_self d shapeCasts_S1x1024_S1x1024) _

end Cert.KernelIdeal.Pay

end
-- ==== Proof.Transition.lean ====
/-
  The two transition matrices of a weighted graph, over the extended reals, and the one law the kernel needs.

  For an adjacency matrix A (8192 × 8192), node r's out-degree is the sum of row r and node j's in-degree is
  the sum of column j. With ε the small positive float both programs add,
      forward[r, j] = A[j, r] · (1 / (outdeg j + ε))        reverse[i, j] = A[i, j] · (1 / (indeg j + ε)).
  Both programs start each degree sum from the float zero, which is the real number 0.

  The kernel never sums a whole column at once. It cuts the rows into 64 bands of 128, gives bands
  0 … 31 to one core and 32 … 63 to the other, and each core adds up its bands' column sums from zero; the
  two per-core partial sums are added afterwards. Addition of extended reals is commutative and associative
  (it is a commutative monoid: ⊤ + ⊥ is ⊥ by convention, and the laws still hold), so regrouping a finite sum
  changes nothing — no entry needs to be finite for that.
-/
import Idealize.ShloMosaic.PureOps.Ideal
import Idealize.ShloMosaic.PureOps.Ideal.Laws
import Idealize.ShloMosaic.Lib.ValueIdx

noncomputable section

open scoped BigOperators

namespace Cert.Transition

open Idealize.ShloMosaic Idealize.ShloMosaic.ValueIdx

/-- An 8192 × 8192 matrix of extended reals. -/
abbrev Mat : Type := (⟨2, ![8192, 8192]⟩ : Shape).Idx → EReal

/-- The three float words both programs use: 0, ε (the f32 nearest 1e-8) and 1. -/
abbrev zeroW : EReal := Ideal.ofBits .f32 0x00000000#32
abbrev epsW : EReal := Ideal.ofBits .f32 0x322BCC77#32
abbrev oneW : EReal := Ideal.ofBits .f32 0x3F800000#32

/-- The float zero is the number zero, so a sum started from it is the sum. -/
theorem zero_start (x : EReal) : zeroW + x = x := by
  rw [show zeroW = 0 from Ideal.ofBits_zero_f32, zero_add]

/-- An entry's row and column as numbers below 8192. -/
abbrev rowOf (i : (⟨2, ![8192, 8192]⟩ : Shape).Idx) : Fin 8192 := ⟨(i 0).val, (i 0).isLt⟩
abbrev colOf (i : (⟨2, ![8192, 8192]⟩ : Shape).Idx) : Fin 8192 := ⟨(i 1).val, (i 1).isLt⟩

/-- The reciprocal of node r's out-degree plus ε. -/
def outInv (A : Mat) (r : Fin 8192) : EReal := Ideal.div oneW ((zeroW + ∑ k : Fin 8192, A (ix2 r k)) + epsW)
/-- The reciprocal of node j's in-degree plus ε. -/
def inInv (A : Mat) (j : Fin 8192) : EReal := Ideal.div oneW ((zeroW + ∑ k : Fin 8192, A (ix2 k j)) + epsW)

/-- The forward transition: the transpose with column j scaled by node j's out-degree reciprocal. -/
def forward (A : Mat) : Mat := fun i => A (ix2 (colOf i) (rowOf i)) * outInv A (colOf i)
/-- The reverse transition: column j scaled by node j's in-degree reciprocal. -/
def reverse (A : Mat) : Mat := fun i => A i * inInv A (colOf i)

/-! ## A column's sum, cut into bands and cores -/

/-- Row t of band n (reduced mod 8192 so that it is a row for every n; for n < 64 nothing is reduced). -/
def rowAt (n : ℕ) (t : Fin 128) : Fin 8192 := ⟨(128 * n + t.val) % 8192, Nat.mod_lt _ (by decide)⟩

/-- Column j's sum over band n. -/
def bandCol (A : Mat) (j : Fin 8192) (n : ℕ) : EReal := ∑ t : Fin 128, A (ix2 (rowAt n t) j)

/-- What a core's accumulator ends holding at column j: zero, plus its 32 bands' column sums. -/
def corePart (A : Mat) (j : Fin 8192) (core : ℕ) : EReal :=
  zeroW + ∑ k ∈ Finset.range 32, bandCol A j (32 * core + k)

/-- A sum over a·b consecutive numbers is the sum over a groups of b. -/
theorem sum_range_mul {M : Type*} [AddCommMonoid M] (f : ℕ → M) (a b : ℕ) :
    ∑ r ∈ Finset.range (a * b), f r = ∑ i ∈ Finset.range a, ∑ j ∈ Finset.range b, f (b * i + j) := by
  induction a with
  | zero => simp
  | succ a ih =>
    rw [Nat.succ_mul, Finset.sum_range_add, ih, Finset.sum_range_succ]
    refine congrArg (_ + ·) (Finset.sum_congr rfl fun j _ => ?_)
    rw [Nat.mul_comm]

/-- The two cores' partial sums together are the column's sum. -/
theorem cores_eq_col (A : Mat) (j : Fin 8192) :
    ∑ core : Fin 2, corePart A j core.val = ∑ r : Fin 8192, A (ix2 r j) := by
  let g : ℕ → EReal := fun r => A (ix2 (⟨r % 8192, Nat.mod_lt _ (by decide)⟩ : Fin 8192) j)
  have hband : ∀ n, bandCol A j n = ∑ t ∈ Finset.range 128, g (128 * n + t) := fun n => by
    rw [Finset.sum_range]; rfl
  have hcol : ∑ r : Fin 8192, A (ix2 r j) = ∑ r ∈ Finset.range 8192, g r := by
    rw [Finset.sum_range]
    refine Finset.sum_congr rfl fun r _ => ?_
    show A (ix2 r j) = A (ix2 (⟨r.val % 8192, _⟩ : Fin 8192) j)
    exact congrArg (fun q : Fin 8192 => A (ix2 q j)) (Fin.ext (Nat.mod_eq_of_lt r.isLt).symm)
  have e1 : ∑ r ∈ Finset.range 8192, g r = ∑ n ∈ Finset.range 64, ∑ t ∈ Finset.range 128, g (128 * n + t) :=
    sum_range_mul g 64 128
  have e2 : ∑ n ∈ Finset.range 64, ∑ t ∈ Finset.range 128, g (128 * n + t)
      = ∑ core ∈ Finset.range 2, ∑ k ∈ Finset.range 32, ∑ t ∈ Finset.range 128, g (128 * (32 * core + k) + t) :=
    sum_range_mul (fun n => ∑ t ∈ Finset.range 128, g (128 * n + t)) 2 32
  rw [hcol, e1, e2, ← Finset.sum_range (fun core => corePart A j core)]
  refine Finset.sum_congr rfl fun core _ => ?_
  unfold corePart
  rw [zero_start]
  exact Finset.sum_congr rfl fun k _ => hband _

end Cert.Transition

end
-- ==== Proof.DegreePass.lean ====
/-
  The degree pass as two whole-array functions of the adjacency matrix.

  Point n of the 64 works on band n: rows 128·n … 128·n + 127, all 8192 columns. It writes back, every time,
  columns 128·n … of the forward transition: entry (r, 128·n + t) is A[128·n + t, r] times the reciprocal of
  row 128·n + t's sum plus ε. The accumulator of core n / 32 is written back only after the core's last band
  (n ≡ 31 mod 32), and then holds at column j zero plus the column sums of the core's 32 bands.
  The 64 column blocks tile the forward transition; the two accumulator rows tile the 2 × 1 × 8192 partials.
-/
import proofs.«145409_j19774029431556_2_alg».proof.Proof.Gen.KernelIdeal.Frame
import proofs.«145409_j19774029431556_2_alg».proof.Proof.DegreeAcc
import proofs.«145409_j19774029431556_2_alg».proof.Proof.Payloads
import proofs.«145409_j19774029431556_2_alg».proof.Proof.Transition
import Idealize.ShloMosaic.Lib.Pipeline.Value

set_option maxRecDepth 16384

noncomputable section

open scoped BigOperators

namespace Cert.KernelIdeal.DegreePass

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: point t reads band t, writes column block t of the forward transition,
    and accumulates into row t / 32 of the partials. -/
theorem point_index : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 32 ∧ win0_2.index t (1 : Fin 3) = 0 ∧ win0_2.index t (2 : Fin 3) = 0 :=
  (by decide +kernel : ∀ t : Fin grid0.N, _)

/-- Band t's entry (tt, k) is the matrix's entry (128·t + tt, k). -/
theorem band_apply (c : Dev nD) (t : Fin cfg0.N) (tt : Fin 128) (k : Fin 8192) :
    (iblk0 V c 0 t : Vec Ideal S128x8192 .f32) (ix2 tt k) = V c main_arg0 (ix2 (Transition.rowAt t.val tt) k) := by
  obtain ⟨e0, e1, -⟩ := point_index t
  have hN : t.val < 64 := lt_of_lt_of_eq t.isLt (show cfg0.N = 64 from N_0)
  have htt : tt.val < 128 := tt.isLt
  show V c main_arg0 (((cfg0.win 0).blk t).view.emb (ix2 tt k)) = _
  refine congrArg (V c main_arg0) (funext fun a => Fin.ext ?_)
  match a with
  | ⟨0, _⟩ =>
    show win0_0.index t (0 : Fin 2) * 128 + 1 * tt.val = (128 * t.val + tt.val) % 8192
    rw [Nat.mod_eq_of_lt (by omega)]; omega
  | ⟨1, _⟩ => show win0_0.index t (1 : Fin 2) * 8192 + 1 * k.val = k.val; omega

/-- Column j's sum over the band point n reads is the matrix's column sum over band n. -/
theorem band_col (c : Dev nD) (n : ℕ) (h : n < cfg0.N) (j : Fin 8192) :
    ∑ t : Fin 128, (DegreeAcc.band V c n h) (ix2 t j) = Transition.bandCol (V c main_arg0) j n :=
  Finset.sum_congr rfl fun t _ => band_apply V c ⟨n, h⟩ t j

/-- The accumulator after point n, at column j: zero plus the column sums of the core's bands so far. -/
theorem acc_apply (c : Dev nD) (j : Fin 8192) : ∀ (n : ℕ) (h : n < cfg0.N),
    DegreeAcc.accAt V c n h (ix3 (0 : Fin 1) (0 : Fin 1) j)
      = Transition.zeroW + ∑ k ∈ Finset.range (n % 32 + 1), Transition.bandCol (V c main_arg0) j (32 * (n / 32) + k)
  | 0, h => by
    rw [DegreeAcc.accAt]
    refine (Pay.pay3_apply _ _ j).trans ?_
    rw [band_col V c 0 h j]
    show Transition.zeroW + _ = Transition.zeroW + ∑ k ∈ Finset.range 1, _
    rw [Finset.sum_range_one]
  | n + 1, h => by
    have hN : n + 1 < 64 := lt_of_lt_of_eq h (show cfg0.N = 64 from N_0)
    rw [DegreeAcc.accAt]
    by_cases h0 : (n + 1) % 32 = 0
    · rw [if_pos h0]
      refine (Pay.pay3_apply _ _ j).trans ?_
      rw [band_col V c (n + 1) h j, h0]
      show Transition.zeroW + _ = Transition.zeroW + ∑ k ∈ Finset.range 1, _
      rw [Finset.sum_range_one, show 32 * ((n + 1) / 32) + 0 = n + 1 from by omega]
    · rw [if_neg h0]
      refine (Pay.pay3_apply _ _ j).trans ?_
      rw [acc_apply c j n (Nat.lt_of_succ_lt h), band_col V c (n + 1) h j]
      have e1 : (n + 1) % 32 = n % 32 + 1 := by omega
      have e2 : (n + 1) / 32 = n / 32 := by omega
      rw [e1, e2, Finset.sum_range_succ _ (n % 32 + 1), add_assoc,
        show 32 * (n / 32) + (n % 32 + 1) = n + 1 from by omega]

/-! ## The forward transition -/

/-- The forward store at `y` is the forward transition at `i`, when `i` is row y₀, column 128·n + y₁. -/
theorem fwd_entry (x : FVec Ideal S128x8192 .f32) (A : Transition.Mat) (n : ℕ)
    (hx : ∀ (tt : Fin 128) (k : Fin 8192), x (ix2 tt k) = A (ix2 (Transition.rowAt n tt) k))
    (y : S8192x128.Idx) (i : S8192x8192.Idx) (hr : (i 0).val = (y 0).val) (hc : (i 1).val = 128 * n + (y 1).val)
    (hn : n < 64) : k0_pay1 (F := Ideal) x y = Transition.forward A i := by
  obtain ⟨r, tt, rfl⟩ : ∃ (r : Fin 8192) (tt : Fin 128), y = ix2 r tt := ⟨y 0, y 1, eq_ix2 y⟩
  have hr' : Transition.rowOf i = r := Fin.ext hr
  have hc' : Transition.colOf i = Transition.rowAt n tt := Fin.ext (by
    show (i 1).val = (128 * n + tt.val) % 8192
    have := tt.isLt
    rw [Nat.mod_eq_of_lt (by omega)]; exact hc)
  rw [Pay.pay1_apply, hx tt r, Finset.sum_congr rfl fun k _ => hx tt k]
  unfold Transition.forward Transition.outInv
  rw [hr', hc', Transition.zero_start]

/-- What point t writes back to the forward transition is its column block of that matrix. -/
theorem fwd_written (c : Dev nD) (t : Fin cfg0.N) :
    (dat0 V c).flushed 1 t = ((cfg0.win 1).blk t).view.read (Elt Ideal) (Transition.forward (V c main_arg0)) := by
  show (cfg0.win 1).cut (grid0.coords t) ((dat0 V c).after 1 t) = _
  rw [after0_1, DegreeAcc.outsAt_eq]
  obtain ⟨-, -, e2, e3, -⟩ := point_index t
  have hN : t.val < 64 := lt_of_lt_of_eq t.isLt (show cfg0.N = 64 from N_0)
  funext y
  refine fwd_entry _ (V c main_arg0) t.val (fun tt k => band_apply V c t tt k) y (((cfg0.win 1).blk t).view.emb y) ?_ ?_ hN
  · show win0_1.index t (0 : Fin 2) * 8192 + 1 * (y 0).val = (y 0).val; omega
  · show win0_1.index t (1 : Fin 2) * 128 + 1 * (y 1).val = 128 * t.val + (y 1).val; omega

/-- An entry is in point t's column block iff each coordinate is in the block's range. -/
theorem mem_fwd_block (t : Fin cfg0.N) (i : S8192x8192.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v0_0).slice (win0_1.rect t)).set ↔ _
  rw [View.set_slice_whole, Rect.mem_set_unit]
  exact Iff.rfl

/-- Every entry of the forward transition is in the column block (column / 128), which is written back. -/
theorem fwd_covered (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  let t : Fin cfg0.N := ⟨(i 1).val / 128, by rw [show cfg0.N = 64 from N_0]; omega⟩
  obtain ⟨-, -, e2, e3, -⟩ := point_index t
  have ht : t.val = (i 1).val / 128 := rfl
  refine ⟨t, flush0_1 t, ?_⟩
  rw [mem_fwd_block]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 128 ≤ (i 1).val ∧ (i 1).val < win0_1.index t (1 : Fin 2) * 128 + 128; omega

/-- After the pass the forward array is the forward transition of the matrix as the pass found it. -/
theorem forward_result (c : Dev nD) : (dat0 V c).arrAt 1 cfg0.N = Transition.forward (V c main_arg0) :=
  (dat0 V c).arrAt_eq_of_cover 1 (Transition.forward (V c main_arg0)) (fun t _ => fwd_written V c t) fwd_covered

/-! ## The per-core partial in-degrees -/

/-- The two cores' partial column sums as a 2 × 1 × 8192 array. -/
def partials (A : Transition.Mat) : S2x1x8192.Idx → EReal :=
  fun i => Transition.corePart A ⟨(i 2).val, (i 2).isLt⟩ (i 0).val

/-- After a core's last band the accumulator at `y` is that core's partial at `i`. -/
theorem acc_entry (c : Dev nD) (n : ℕ) (h : n < cfg0.N) (h31 : n % 32 = 31) (y : S1x1x8192.Idx) (i : S2x1x8192.Idx)
    (h0 : (i 0).val = n / 32) (h2 : (i 2).val = (y 2).val) :
    DegreeAcc.accAt V c n h y = partials (V c main_arg0) i := by
  obtain ⟨a, b, j, rfl⟩ : ∃ (a b : Fin 1) (j : Fin 8192), y = ix3 a b j := ⟨y 0, y 1, y 2, eq_ix3 y⟩
  obtain rfl : a = 0 := Subsingleton.elim _ _
  obtain rfl : b = 0 := Subsingleton.elim _ _
  have hj : (⟨(i 2).val, (i 2).isLt⟩ : Fin 8192) = j := Fin.ext h2
  rw [acc_apply V c j n h, h31]
  unfold partials Transition.corePart
  rw [h0, hj]

/-- What a core's last point writes back is its row of the partials. -/
theorem acc_written (c : Dev nD) (t : Fin cfg0.N) (hf : (cfg0.win 2).flush t = true) :
    (dat0 V c).flushed 2 t = ((cfg0.win 2).blk t).view.read (Elt Ideal) (partials (V c main_arg0)) := by
  have h31 : t.val % 32 = 31 := (flush0_2 t).mp hf
  show (cfg0.win 2).cut (grid0.coords t) ((dat0 V c).after 2 t) = _
  rw [after0_2, DegreeAcc.outsAt_eq]
  obtain ⟨-, -, -, -, e4, e5, e6⟩ := point_index t
  funext y
  refine acc_entry V c t.val t.isLt h31 y (((cfg0.win 2).blk t).view.emb y) ?_ ?_
  · show win0_2.index t (0 : Fin 3) * 1 + 1 * (y 0).val = t.val / 32
    have : (y 0).val < 1 := (y 0).isLt
    omega
  · show win0_2.index t (2 : Fin 3) * 8192 + 1 * (y 2).val = (y 2).val; omega

/-- An entry is in point t's row of the partials iff each coordinate is in the block's range. -/
theorem mem_acc_block (t : Fin cfg0.N) (i : S2x1x8192.Idx) :
    i ∈ ((cfg0.win 2).blk t).view.set ↔ ∀ a : Fin 3, win0_2.index t a * S1x1x8192.size a ≤ (i a).val ∧ (i a).val < win0_2.index t a * S1x1x8192.size a + S1x1x8192.size a := by
  show i ∈ ((View.whole main_v0_1).slice (win0_2.rect t)).set ↔ _
  rw [View.set_slice_whole, Rect.mem_set_unit]
  exact Iff.rfl

/-- Row `core` of the partials is written back at the core's last point, 32·core + 31. -/
theorem acc_covered (i : S2x1x8192.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 8192 := (i 2).isLt
  let t : Fin cfg0.N := ⟨32 * (i 0).val + 31, by rw [show cfg0.N = 64 from N_0]; omega⟩
  obtain ⟨-, -, -, -, e4, e5, e6⟩ := point_index t
  have ht : t.val = 32 * (i 0).val + 31 := rfl
  refine ⟨t, (flush0_2 t).mpr (by rw [ht]; omega), ?_⟩
  rw [mem_acc_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 8192 ≤ (i 2).val ∧ (i 2).val < win0_2.index t (2 : Fin 3) * 8192 + 8192; omega

/-- After the pass the partials array holds each core's partial column sums. -/
theorem partials_result (c : Dev nD) : (dat0 V c).arrAt 2 cfg0.N = partials (V c main_arg0) :=
  (dat0 V c).arrAt_eq_of_cover 2 (partials (V c main_arg0)) (fun t hf => acc_written V c t hf) acc_covered

end Cert.KernelIdeal.DegreePass

end
-- ==== Proof.ScalePass.lean ====
/-
  The column-scaling pass as one whole-array function.

  The pass runs on an 8 × 8 grid of 1024 × 1024 tiles. At tile (bi, bj) it reads that tile of the
  adjacency matrix and columns 1024·bj … of the row `d` of reciprocals, and writes the tile of the
  result at the same place: entry (i, j) of the result is `A[i, j] · d[0, j]`. Every entry of the
  8192 × 8192 result lies in exactly the tile (i / 1024, j / 1024), so after the pass the result array
  is that function of the two arrays as the pass found them.
-/
import proofs.«145409_j19774029431556_2_alg».proof.Proof.Gen.KernelIdeal.Frame
import proofs.«145409_j19774029431556_2_alg».proof.Proof.Payloads
import Idealize.ShloMosaic.Lib.Pipeline.Value

set_option maxRecDepth 16384

noncomputable section

namespace Cert.KernelIdeal.ScalePass

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The place in the row of reciprocals that scales entry `i` of the matrix: (0, column of i). -/
abbrev colOf (i : S8192x8192.Idx) : S1x8192.Idx := fun a => match a with
  | ⟨0, _⟩ => ⟨0, Nat.one_pos⟩
  | ⟨1, _⟩ => ⟨(i 1).val, (i 1).isLt⟩

/-- The matrix with each column scaled by its entry of the row `d`. -/
def scaled (A : S8192x8192.Idx → EReal) (d : S1x8192.Idx → EReal) : S8192x8192.Idx → EReal :=
  fun i => A i * d (colOf i)

/-- The tile's store at any index of the tile. -/
theorem tile_apply (a : FVec Ideal S1024x1024 .f32) (d : FVec Ideal S1x1024 .f32) (y : S1024x1024.Idx) :
    k1_pay1 (F := Ideal) a d y = a y * d (ix2 (0 : Fin 1) (⟨(y 1).val, (y 1).isLt⟩ : Fin 1024)) := by
  obtain ⟨p, q, rfl⟩ : ∃ (p q : Fin 1024), y = ix2 p q := ⟨y 0, y 1, eq_ix2 y⟩
  exact Pay.scale_apply a d p q

/-- The tile's store at `y` is the scaled matrix at `i`, once the tile's entry and the reciprocal's entry are read at `i`. -/
theorem tile_eq (a : FVec Ideal S1024x1024 .f32) (d : FVec Ideal S1x1024 .f32) (A : S8192x8192.Idx → EReal)
    (D : S1x8192.Idx → EReal) (y : S1024x1024.Idx) (i : S8192x8192.Idx) (ha : a y = A i)
    (hd : d (ix2 (0 : Fin 1) (⟨(y 1).val, (y 1).isLt⟩ : Fin 1024)) = D (colOf i)) :
    k1_pay1 (F := Ideal) a d y = scaled A D i := by
  rw [tile_apply, ha, hd]
  rfl

/-- The printed index maps over the grid: the matrix tile read and the tile written are the same tile, the
    reciprocals' block is the written tile's column block in the one row, and tile indices run over 0 … 7. -/
theorem tile_index : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = win1_2.index t (1 : Fin 2)
    ∧ win1_2.index t (0 : Fin 2) ≤ 7 ∧ win1_2.index t (1 : Fin 2) ≤ 7 :=
  (by decide +kernel : ∀ t : Fin grid1.N, _)

/-- Every tile is some grid point's. -/
theorem tile_onto : ∀ (q0 q1 : Fin 8), ∃ t : Fin cfg1.N, win1_2.index t = ![q0.val, q1.val] :=
  (by decide +kernel : ∀ (q0 q1 : Fin 8), ∃ t : Fin grid1.N, win1_2.index t = ![q0.val, q1.val])

/-- What grid point `t` writes back is its tile of the scaled matrix. -/
theorem written (c : Dev nD) (t : Fin cfg1.N) :
    (dat1 V c).flushed 2 t = ((cfg1.win 2).blk t).view.read (Elt Ideal) (scaled (V c main_arg0) (V c main_v5)) := by
  show (cfg1.win 2).cut (grid1.coords t) ((dat1 V c).after 2 t) = _
  rw [after1_2]
  unfold out1_2
  rw [View.canon_unit_zero zeros2]
  simp only [View.ld_unit_zero (S := S1024x1024) zeros2, View.ld_unit_zero (S := S1x1024) zeros2]
  obtain ⟨e0, e1, e2, e3, e4, e5⟩ := tile_index t
  funext j
  have h0 : ((cfg1.win 0).blk t).view.emb j = ((cfg1.win 2).blk t).view.emb j := by
    funext a; apply Fin.ext
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 1024 + 1 * (j 1).val = win1_2.index t (1 : Fin 2) * 1024 + 1 * (j 1).val; omega
  have h1 : ((cfg1.win 1).blk t).view.emb (ix2 (0 : Fin 1) (⟨(j 1).val, (j 1).isLt⟩ : Fin 1024))
      = colOf (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 1024 + 1 * (j 1).val = win1_2.index t (1 : Fin 2) * 1024 + 1 * (j 1).val; omega
  refine tile_eq _ _ (V c main_arg0) (V c main_v5) j (((cfg1.win 2).blk t).view.emb j) ?_ ?_
  · show V c main_arg0 (((cfg1.win 0).blk t).view.emb j) = _
    rw [h0]
  · show V c main_v5 (((cfg1.win 1).blk t).view.emb (ix2 (0 : Fin 1) (⟨(j 1).val, (j 1).isLt⟩ : Fin 1024))) = _
    rw [h1]

/-- An entry is in grid point `t`'s tile iff each coordinate is in the tile's range. -/
theorem mem_tile (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v6).slice (win1_2.rect t)).set ↔ _
  rw [View.set_slice_whole, Rect.mem_set_unit]
  exact Iff.rfl

/-- Every entry of the result is in the tile (row / 1024, column / 1024), which is written back. -/
theorem covered (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := tile_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_tile]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- After the pass the result array is the matrix with each column scaled by its reciprocal, both arrays as the pass
    found them. -/
theorem result (c : Dev nD) : (dat1 V c).arrAt 2 cfg1.N = scaled (V c main_arg0) (V c main_v5) :=
  (dat1 V c).arrAt_eq_of_cover 2 (scaled (V c main_arg0) (V c main_v5)) (fun t _ => written V c t) covered

end Cert.KernelIdeal.ScalePass

end
-- ==== Proof.Boundary.lean ====
/-
  The last boundary's contents at the two result buffers, as functions of the launched adjacency matrix.

  The forward transition is written by the degree pass and by nothing after it: no host operation and no
  window of the scaling pass names its buffer. So at the end it holds what the degree pass left — the forward
  transition of the matrix the pass found, which is the launched one.

  The reverse transition is the scaling pass's result: the matrix (still as launched: nothing writes it) with
  column j scaled by entry j of the row the host stretch computed. That row is 1 / ((0 + p₀[j] + p₁[j]) + ε) of
  the two cores' partial column sums p₀, p₁ the degree pass left; and p₀[j] + p₁[j] is column j's whole sum,
  by regrouping. So the row is the in-degree reciprocals and the result the reverse transition.
-/
import proofs.«145409_j19774029431556_2_alg».proof.Proof.Gen.KernelIdeal.Frame
import proofs.«145409_j19774029431556_2_alg».proof.Proof.DegreePass
import proofs.«145409_j19774029431556_2_alg».proof.Proof.ScalePass
import proofs.«145409_j19774029431556_2_alg».proof.Proof.Transition
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.Boundary

open Cert.KernelIdeal Cert.KernelIdeal.Gen
open Idealize.ShloMosaic Idealize.ShloMosaic.TcCoe Idealize.SL.Sem Idealize.ShloMosaic.ValueIdx

/-! ## The host stretch -/

/-- The two cores' partials added up from the float zero: a row of 8192 sums. -/
def sumCores (P : (⟨S2x1x8192, .f32⟩ : BufTy).Contents (Elt Ideal)) : (⟨S1x8192, .f32⟩ : BufTy).Contents (Elt Ideal) :=
  Host.reduceAdd (F := Ideal) P (constant (F := Ideal) S_ .f32 0x00000000#32) reducesTo_S2x1x8192_S1x8192_d0 h_S_

/-- The host stretch's result as a function of the partials: one over (their sum plus ε). -/
def inRecip (P : (⟨S2x1x8192, .f32⟩ : BufTy).Contents (Elt Ideal)) : (⟨S1x8192, .f32⟩ : BufTy).Contents (Elt Ideal) :=
  Host.divf (F := Ideal) (broadcastInDim S1x8192 ![] bcast_S_S1x8192 (constant (F := Ideal) S_ .f32 0x3F800000#32))
    (addf (sumCores P) (broadcastInDim S1x8192 ![] bcast_S_S1x8192 (constant (F := Ideal) S_ .f32 0x322BCC77#32)))

/-- The sum over the core axis at column j: zero plus the two cores' entries. -/
theorem sumCores_apply (P : (⟨S2x1x8192, .f32⟩ : BufTy).Contents (Elt Ideal)) (j : Fin 8192) :
    sumCores P (ix2 (0 : Fin 1) j) = Transition.zeroW + ∑ core : Fin 2, P (ix3 core (0 : Fin 1) j) := by
  unfold sumCores
  simp only [Host.reduceAdd, Ideal.hostReduceAdd_def]
  rw [Ideal.hostReduceAdd_single reducesTo_S2x1x8192_S1x8192_d0 (by decide)]
  refine congrArg₂ (· + ·) rfl (Finset.sum_congr rfl fun k _ => congrArg P (funext fun a => Fin.ext ?_))
  match a with
  | ⟨0, _⟩ => rfl
  | ⟨1, _⟩ => rfl
  | ⟨2, _⟩ => rfl

/-- A scalar broadcast to the row reads the scalar. -/
theorem row_const_apply (w : BitVec 32) (i : S1x8192.Idx) :
    broadcastInDim S1x8192 ![] bcast_S_S1x8192 (constant (F := Ideal) S_ .f32 w) i = Ideal.ofBits .f32 w :=
  broadcastInDim_apply _ bcast_S_S1x8192 (constant (F := Ideal) S_ .f32 w) i (fun a => a.elim0) (fun a => a.elim0)

/-- The host stretch's result at column j. -/
theorem inRecip_apply (P : (⟨S2x1x8192, .f32⟩ : BufTy).Contents (Elt Ideal)) (j : Fin 8192) :
    inRecip P (ix2 (0 : Fin 1) j)
      = Ideal.div Transition.oneW ((Transition.zeroW + ∑ core : Fin 2, P (ix3 core (0 : Fin 1) j)) + Transition.epsW) := by
  unfold inRecip
  show FloatOps.hostDivf (broadcastInDim S1x8192 ![] bcast_S_S1x8192 (constant (F := Ideal) S_ .f32 0x3F800000#32) (ix2 (0 : Fin 1) j))
      (FloatOps.addf (sumCores P (ix2 (0 : Fin 1) j))
        (broadcastInDim S1x8192 ![] bcast_S_S1x8192 (constant (F := Ideal) S_ .f32 0x322BCC77#32) (ix2 (0 : Fin 1) j))) = _
  rw [row_const_apply, row_const_apply, sumCores_apply]
  rfl

variable (m : (ℓ : Loc nD τ sig) → Buf (Elt Ideal) ℓ) (ρ : Dev nD → PrngReg)

/-- The host stretch writes neither the adjacency matrix … -/
theorem host_keeps_matrix (c : Dev nD) :
    W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, Finset.mem_singleton]
    repeat' apply And.intro
    all_goals exact StableHlo.devRef_ne_of_ne (by decide)))

/-- … nor the forward transition. -/
theorem host_keeps_forward (c : Dev nD) :
    W2 m ρ c (Proc.devRef .tc main_v0_0) = W1 m ρ c (Proc.devRef .tc main_v0_0) :=
  StableHlo.after_of_forall_not_mem (b := Proc.devRef .tc main_v0_0) _ _ (List.forall_iff_forall_mem.mp (by
    simp only [hostOps1, List.Forall, StableHlo.nullary_writes, StableHlo.unary_writes, StableHlo.binary_writes, Finset.mem_singleton]
    repeat' apply And.intro
    all_goals exact StableHlo.devRef_ne_of_ne (by decide)))

/-- The matrix as the scaling pass finds it is the launched one. -/
theorem matrix_at_scale (c : Dev nD) : V2 m ρ c main_arg0 = m ((c.tc : Thread nD τ).loc main_arg0) :=
  calc V2 m ρ c main_arg0
    _ = W1 m ρ c (Proc.devRef .tc main_arg0) := host_keeps_matrix m ρ c
    _ = W0 m ρ c (Proc.devRef .tc main_arg0) := (W1_arr m ρ c 0).trans (((dat0 (V0 m ρ) c).arrAt_in 0 rfl _).trans (A_eq0 (V0 m ρ) c 0))
    _ = m ((c.tc : Thread nD τ).loc main_arg0) := rfl

/-- The row of reciprocals the scaling pass finds is the host stretch's function of the partials the degree pass left. -/
theorem recip_at_scale (c : Dev nD) :
    V2 m ρ c main_v5 = inRecip (DegreePass.partials (m ((c.tc : Thread nD τ).loc main_arg0))) := by
  have hp : W1 m ρ c (Proc.devRef .tc main_v0_1) = DegreePass.partials (m ((c.tc : Thread nD τ).loc main_arg0)) :=
    (W1_arr m ρ c 2).trans (DegreePass.partials_result (V0 m ρ) c)
  rw [← hp]
  show StableHlo.after hostOps1 (W1 m ρ c) (Proc.devRef .tc main_v5) = _
  after_results
  rfl

/-! ## The two results -/

/-- The forward transition's buffer ends at the forward transition of the launched matrix. -/
theorem forward_at (c : Dev nD) :
    W3 m ρ c (Proc.devRef .tc main_v0_0) = Transition.forward (m ((c.tc : Thread nD τ).loc main_arg0)) :=
  calc W3 m ρ c (Proc.devRef .tc main_v0_0)
    _ = W2 m ρ c (Proc.devRef .tc main_v0_0) := W3_of_ne m ρ c main_v0_0 (by decide)
    _ = W1 m ρ c (Proc.devRef .tc main_v0_0) := host_keeps_forward m ρ c
    _ = (dat0 (V0 m ρ) c).arrAt 1 cfg0.N := W1_arr m ρ c 1
    _ = Transition.forward (m ((c.tc : Thread nD τ).loc main_arg0)) := DegreePass.forward_result (V0 m ρ) c

/-- The place in the row that scales an entry is (0, the entry's column). -/
theorem colOf_eq (i : S8192x8192.Idx) : ScalePass.colOf i = ix2 (0 : Fin 1) (Transition.colOf i) :=
  funext fun a => Fin.ext (by match a with | ⟨0, _⟩ => rfl | ⟨1, _⟩ => rfl)

/-- Scaling by the host stretch's row of the degree pass's partials is the reverse transition. -/
theorem scaled_eq_reverse (A : Transition.Mat) :
    ScalePass.scaled A (inRecip (DegreePass.partials A)) = Transition.reverse A := by
  funext i
  unfold ScalePass.scaled Transition.reverse Transition.inInv
  rw [colOf_eq, inRecip_apply, ← Transition.cores_eq_col A (Transition.colOf i)]
  rfl

/-- The reverse transition's buffer ends at the reverse transition of the launched matrix. -/
theorem reverse_at (c : Dev nD) :
    W3 m ρ c (Proc.devRef .tc main_v6) = Transition.reverse (m ((c.tc : Thread nD τ).loc main_arg0)) :=
  calc W3 m ρ c (Proc.devRef .tc main_v6)
    _ = (dat1 (V2 m ρ) c).arrAt 2 cfg1.N := W3_arr m ρ c 2
    _ = ScalePass.scaled (V2 m ρ c main_arg0) (V2 m ρ c main_v5) := ScalePass.result (V2 m ρ) c
    _ = ScalePass.scaled (m ((c.tc : Thread nD τ).loc main_arg0)) (inRecip (DegreePass.partials (m ((c.tc : Thread nD τ).loc main_arg0)))) := by
        rw [matrix_at_scale m ρ c, recip_at_scale m ρ c]
    _ = Transition.reverse (m ((c.tc : Thread nD τ).loc main_arg0)) := scaled_eq_reverse _

end Cert.KernelIdeal.Boundary

end
-- ==== Proof.RefValue.lean ====
/-
  The reference's two results are the forward and the reverse transition.

  The reference sums each row and each column of the matrix from the float zero, adds ε, takes the reciprocal
  of one, and multiplies: the transposed matrix by the out-degree reciprocals along columns, the matrix itself
  by the in-degree reciprocals along columns. Read at an entry (r, j): the transpose reads A at (j, r); the
  out-degree reciprocal is read at j through two broadcasts, and its sum runs over row j; the in-degree
  reciprocal is read at j likewise, and its sum runs over column j.
-/
import proofs.«145409_j19774029431556_2_alg».proof.Proof.Gen.ReferenceIdeal.Read
import proofs.«145409_j19774029431556_2_alg».proof.Proof.Transition

noncomputable section

open scoped BigOperators

namespace Cert.ReferenceIdeal.RefValue

open Cert.ReferenceIdeal Cert.ReferenceIdeal.Read Idealize.ShloMosaic Idealize.ShloMosaic.ValueIdx

/-- The transpose reads entry (r, j) at (j, r). -/
theorem idx_transposed (i : S8192x8192.Idx) : idx_main_v10 i = ix2 (Transition.colOf i) (Transition.rowOf i) :=
  funext fun a => Fin.ext (by match a with | ⟨0, _⟩ => rfl | ⟨1, _⟩ => rfl)

/-- The out-degree behind entry (r, j) sums row j: its k-th term is the matrix at (j, k). -/
theorem idx_out (i : S8192x8192.Idx) (k : Fin 8192) :
    idx_main_v0 (idx_main_v11 (idx_main_v12 i)) k = ix2 (Transition.colOf i) k :=
  funext fun a => Fin.ext (by match a with | ⟨0, _⟩ => rfl | ⟨1, _⟩ => rfl)

/-- The in-degree behind entry (i, j) sums column j: its k-th term is the matrix at (k, j). -/
theorem idx_in (i : S8192x8192.Idx) (k : Fin 8192) :
    idx_main_v1 (idx_main_v14 (idx_main_v15 i)) k = ix2 k (Transition.colOf i) :=
  funext fun a => Fin.ext (by match a with | ⟨0, _⟩ => rfl | ⟨1, _⟩ => rfl)

/-- The reference's first result is the forward transition. -/
theorem forward_eq (A : (⟨S8192x8192, .f32⟩ : BufTy).Contents (Elt Ideal)) :
    val_main_v13 (F := Ideal) A = Transition.forward A := by
  funext i
  rw [val_main_v13_apply, val_main_v10_apply, val_main_v12_apply, val_main_v11_apply, val_main_v5_apply,
    val_main_v4_apply, val_main_cst_2_apply, val_main_v3_apply, val_main_v0_apply, val_main_cst_apply,
    val_main_v2_apply, val_main_cst_1_apply]
  simp only [idx_transposed, idx_out, Ideal.mulf_def, Ideal.hostDivf_def, Ideal.addf_def, Ideal.ofBits_def]
  rfl

/-- The reference's second result is the reverse transition. -/
theorem reverse_eq (A : (⟨S8192x8192, .f32⟩ : BufTy).Contents (Elt Ideal)) :
    val_main_v16 (F := Ideal) A = Transition.reverse A := by
  funext i
  rw [val_main_v16_apply, val_main_v15_apply, val_main_v14_apply, val_main_v9_apply,
    val_main_v8_apply, val_main_cst_4_apply, val_main_v7_apply, val_main_v1_apply, val_main_cst_0_apply,
    val_main_v6_apply, val_main_cst_3_apply]
  simp only [idx_in, Ideal.mulf_def, Ideal.hostDivf_def, Ideal.addf_def, Ideal.ofBits_def]
  rfl

end Cert.ReferenceIdeal.RefValue

end
-- ==== Proof.lean ====
/-
  The degree-normalised transition matrices of a weighted graph: a two-pass kernel against a plain array reference.

  For an adjacency matrix A (8192 × 8192, f32) both programs return
      forward[r, j] = A[j, r] · (1 / (Σ_k A[j, k] + ε))      reverse[i, j] = A[i, j] · (1 / (Σ_k A[k, j] + ε)),
  ε the f32 nearest 1e-8, each degree sum started from the float zero. Over the extended reals — floats exact,
  a change of format the identity — the two programs compute the same two matrices, entry by entry:

  * The forward transition. The kernel's first pass takes the matrix 128 rows at a time; a band's row sums are
    complete within the band, so the band transposed and scaled is already a block of 128 columns of the
    result. The 64 blocks tile it. The kernel's lane sum has no initial term where the reference's sum starts
    from the float zero, which is the number 0.
  * The reverse transition. Column sums are not complete within a band. Each of two cores adds up the column
    sums of its 32 bands from zero; the host adds the two partial sums, adds ε and takes the reciprocal; the
    second pass scales the matrix tile by tile. The reference sums each column at once. The two groupings of
    the same 8192 terms agree because addition of extended reals is commutative and associative — nothing
    needs to be finite.

  The division, the multiplication and the three float literals are the same operations and the same words on
  both sides. The precondition (every entry finite) is never opened.

  The three programs terminate without fault and leave the matrix as launched: the kernels' frames are the
  generated ones; the reference has no kernel and its frame is its run with the results dropped. The
  idealization rewrote nothing, so that conjunct is trivial.
-/
import proofs.«145409_j19774029431556_2_alg».proof.Defs
import proofs.«145409_j19774029431556_2_alg».proof.Proof.Gen.Kernel
import proofs.«145409_j19774029431556_2_alg».proof.Proof.Gen.Kernel.Skeleton
import proofs.«145409_j19774029431556_2_alg».proof.Proof.Gen.Kernel.Launch
import proofs.«145409_j19774029431556_2_alg».proof.Proof.Gen.Kernel.Points
import proofs.«145409_j19774029431556_2_alg».proof.Proof.Gen.Kernel.Frame
import proofs.«145409_j19774029431556_2_alg».proof.Proof.Gen.KernelIdeal
import proofs.«145409_j19774029431556_2_alg».proof.Proof.Gen.KernelIdeal.Skeleton
import proofs.«145409_j19774029431556_2_alg».proof.Proof.Gen.KernelIdeal.Launch
import proofs.«145409_j19774029431556_2_alg».proof.Proof.Gen.KernelIdeal.Points
import proofs.«145409_j19774029431556_2_alg».proof.Proof.Gen.KernelIdeal.Frame
import proofs.«145409_j19774029431556_2_alg».proof.Proof.Gen.ReferenceIdeal
import proofs.«145409_j19774029431556_2_alg».proof.Proof.Gen.Pre_finite_inputs
import proofs.«145409_j19774029431556_2_alg».proof.Proof.Gen.ReferenceIdeal.Run
import proofs.«145409_j19774029431556_2_alg».proof.Proof.Gen.ReferenceIdeal.Read
import proofs.«145409_j19774029431556_2_alg».proof.Proof.KernelRun
import proofs.«145409_j19774029431556_2_alg».proof.Proof.Boundary
import proofs.«145409_j19774029431556_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs and leaves the matrix alone: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the forward and the reverse transition of the launched matrix. -/
theorem algebraic : Cert.algebraic_KernelIdeal_ReferenceIdeal := by
  intro m ρ m' ρ' _ hagree
  refine ⟨fun c => Cert.Transition.forward (m ((c.tc : Thread Cert.KernelIdeal.nD Cert.KernelIdeal.τ).loc Cert.KernelIdeal.main_arg0)),
    fun c => Cert.Transition.reverse (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Boundary.forward_at m ρ c),
        (h c).2.1.trans (Cert.KernelIdeal.Boundary.reverse_at m ρ c), (h c).2.2⟩)
      (Cert.KernelIdeal.ValueRun.run_boundary m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v13_eq, Cert.ReferenceIdeal.RefValue.forward_eq, hagree c]
    · rw [(h c).2.1, Cert.ReferenceIdeal.Read.val_main_v16_eq, Cert.ReferenceIdeal.RefValue.reverse_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
